-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v1 : BitVec 32 := Scalar.muli arg1 c1024_i32
  v1
def k0_off1 (i : grid0.Coords) : Fin 2 → Nat :=
  let arg1 : BitVec 32 := BitVec.ofNat 32 (i 1).val
  let c1024_i32 : BitVec 32 := 1024#32
  let v1 : BitVec 32 := Scalar.muli arg1 c1024_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Piece.lean ====
/-
  What one grid point leaves in the output's staging buffer, as a value.

  The body makes one store, through the whole `1024 × 1024` staging buffer, of its payload applied to two loads:
  the whole `1024 × 256` block of the first operand, and the `1024` rows of the second operand's resident
  `8192 × 256` buffer that start at row `1024 · j` (`j` the point's second coordinate). A single covering store
  leaves exactly its payload, and a load through the whole buffer reads its contents; so the buffer ends holding the
  payload of the first block and of that row range of the second array. This holds at every float instance.
-/
import proofs.«101373_j27762668601763_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Piece

open Cert.KernelIdeal Cert.KernelIdeal.Gen

variable {F : FTy → Type} [FloatOps F]

theorem zero_offsets : (![0, 0] : Fin 2 → Nat) = fun _ => 0 := funext fun a => by fin_cases a <;> rfl

/-- The rows of the second operand one grid point reads: `1024` consecutive rows from the point's row offset. -/
abbrev rowRange (i : grid0.Coords) (x1 : Vec F S8192x256 .f32) : Vec F S1024x256 .f32 :=
  View.ld x1 (Rect.unit (s := S8192x256) (k0_off1 i) S1024x256.size (k0_off1_inb i))

/-- The output's staging buffer after the body: the payload of the first operand's block and of the second operand's
    row range. -/
theorem staged_eq (c : Dev nD) (i : grid0.Coords) (a2 : Memref sig .tc .vmem S1024x256 .f32) (h2 : a2.IsWhole)
    (a3 : Memref sig .tc .vmem S8192x256 .f32) (h3 : a3.IsWhole) (a4 : Memref sig .tc .vmem S1024x1024 .f32) (h4 : a4.IsWhole)
    (x0 : Vec F S1024x256 .f32) (x1 : Vec F S8192x256 .f32) :
    out0_A_2 c i a2 h2 a3 h3 a4 h4 x0 x1 = k0_pay1 x0 (rowRange i x1) := by
  unfold out0_A_2
  rw [View.read_writes_eq_canon _ _ _ (cover0_A_2 c i a2 h2 a3 h3 a4 h4 x0 x1)]
  unfold kernelRun0_A
  dsimp only
  rw [View.canon_unit_zero zero_offsets]
  simp only [View.readAt_eq_ld, h2.read_unread, h3.read_unread, View.ld_unit_zero (S := S1024x256) zero_offsets]

end Cert.KernelIdeal.Piece

end
-- ==== Proof.Threshold.lean ====
/-
  The one scalar fact that joins the two programs.

  Both compute, for a pair of rows, the clamped squared distance `e = max d 0`, an extended real with `0 ≤ e`.
  One program masks where `e > 64` and elsewhere returns `0 - √e`. The other first forms `s = -√e`, masks where
  `s < -8`, and elsewhere returns `s`. On the extended reals these are one function of `e`:

    * for `0 ≤ e`, `64 < e ↔ -√e < -8` — the square root is strictly monotone on the nonnegative reals and
      `8 ^ 2 = 64`; at `e = ⊤` both sides hold, since `√⊤ = ⊤` and `-⊤ = ⊥`;
    * `0 - y = -y` for every extended real `y`.

  The three bit patterns that occur are exact: `0x42800000` is `64`, `0xC1000000` is `-8`, `0x00000000` is `0`;
  the mask value `0xFF800000` is the same word on both sides and is never evaluated.
-/
import Idealize.ShloMosaic.PureOps.Ideal
import Idealize.ShloMosaic.PureOps.Ideal.Laws

noncomputable section

namespace Cert.Threshold

open Idealize.ShloMosaic

/-- The pattern `0x42800000` denotes the real `64`. -/
theorem ofBits_64 : Ideal.ofBits .f32 0x42800000#32 = ((64 : ℝ) : EReal) := by
  simp [Ideal.ofBits, Ideal.ieee, -EReal.coe_mul]; norm_num

/-- The pattern `0xC1000000` denotes the real `-8`. -/
theorem ofBits_neg8 : Ideal.ofBits .f32 0xC1000000#32 = ((-8 : ℝ) : EReal) := by
  simp [Ideal.ofBits, Ideal.ieee, -EReal.coe_mul]; norm_num

/-- A nonnegative extended real exceeds `64` exactly when its negated square root lies below `-8`. -/
theorem gt_iff_neg_sqrt_lt {e : EReal} (he : 0 ≤ e) :
    ((64 : ℝ) : EReal) < e ↔ -(Ideal.sqrt e) < ((-8 : ℝ) : EReal) := by
  induction e using EReal.rec with
  | bot => exact absurd he (by simp)
  | top =>
    rw [Ideal.sqrt_top, EReal.neg_top]
    exact ⟨fun _ => EReal.bot_lt_coe _, fun _ => EReal.coe_lt_top _⟩
  | coe r =>
    have hr : 0 ≤ r := EReal.coe_nonneg.mp he
    rw [Ideal.sqrt_coe, if_neg (not_lt.mpr hr), ← EReal.coe_neg, EReal.coe_lt_coe_iff, EReal.coe_lt_coe_iff,
      neg_lt_neg_iff, Real.lt_sqrt (by norm_num)]
    norm_num

/-- Masking the clamped squared distance above `64` and negating its root afterwards, or negating the root first
    and masking below `-8`: one extended real, for every `0 ≤ e`. -/
theorem masked_eq {e : EReal} (he : 0 ≤ e) :
    Scalar.select (Ideal.cmp .ogt e (Ideal.ofBits .f32 0x42800000#32)) (Ideal.ofBits .f32 0xFF800000#32)
        (Ideal.ofBits .f32 0x00000000#32 - Ideal.sqrt e)
      = Scalar.select (Ideal.cmp .olt (-(Ideal.sqrt e)) (Ideal.ofBits .f32 0xC1000000#32)) (Ideal.ofBits .f32 0xFF800000#32)
        (-(Ideal.sqrt e)) := by
  have hc : Ideal.cmp .ogt e (Ideal.ofBits .f32 0x42800000#32)
      = Ideal.cmp .olt (-(Ideal.sqrt e)) (Ideal.ofBits .f32 0xC1000000#32) := by
    unfold Ideal.cmp
    rw [ofBits_64, ofBits_neg8]
    exact congrArg BitVec.ofBool (decide_eq_decide.mpr (gt_iff_neg_sqrt_lt he))
  rw [hc, Ideal.ofBits_zero_f32, zero_sub]

end Cert.Threshold

end
-- ==== Proof.RowDistance.lean ====
/-
  The specification: the masked negated Euclidean distance between two rows of length 256.

  For rows `u v : Fin 256 → EReal`:
    * `rowSq u = ∑ k, u k * u k` is the squared norm, `rowDot u v = ∑ k, u k * v k` the inner product;
    * `clampedSq u v = max (rowSq u + rowSq v - 2 * rowDot u v) 0` is the squared distance by the Gram identity,
      clamped at zero, so `0 ≤ clampedSq u v` always;
    * `maskedAbove u v` is `-∞` where `clampedSq u v > 64` and `0 - √(clampedSq u v)` elsewhere;
    * `maskedBelow u v` is `-∞` where `-√(clampedSq u v) < -8` and `-√(clampedSq u v)` elsewhere.
  The two masked forms are one function (`masked_forms_eq`, from the scalar law for a nonnegative argument).

  `pairwise X Y` is the `8192 × 8192` array whose entry `(r, s)` is `maskedAbove` of row `r` of `X` and row `s`
  of `Y`: the function both programs are shown to compute.

  The constants are kept as the bit patterns the programs spell (`2.0`, `0.0`, `64.0`, `-8.0`, `-∞`), so that the
  same word on both sides is never evaluated.
-/
import Idealize.ShloMosaic.PureOps.Ideal
import Idealize.ShloMosaic.PureOps.Ideal.Laws
import Idealize.ShloMosaic.Lib.ValueIdx
import proofs.«101373_j27762668601763_2_alg».proof.Proof.Threshold

noncomputable section

namespace Cert.RowDistance

open Idealize.ShloMosaic Idealize.ShloMosaic.ValueIdx

/-- The squared norm of a row. -/
def rowSq (u : Fin 256 → EReal) : EReal := ∑ k : Fin 256, u k * u k

/-- The inner product of two rows. -/
def rowDot (u v : Fin 256 → EReal) : EReal := ∑ k : Fin 256, u k * v k

/-- The squared distance `|u|² + |v|² - 2 u·v`, clamped at zero. -/
def clampedSq (u v : Fin 256 → EReal) : EReal :=
  max (rowSq u + rowSq v - Ideal.ofBits .f32 0x40000000#32 * rowDot u v) (Ideal.ofBits .f32 0x00000000#32)

theorem clampedSq_nonneg (u v : Fin 256 → EReal) : 0 ≤ clampedSq u v := by
  unfold clampedSq
  rw [Ideal.ofBits_zero_f32]
  exact le_max_right _ _

/-- Mask where the clamped squared distance exceeds `64`; elsewhere `0 - √·`. -/
def maskedAbove (u v : Fin 256 → EReal) : EReal :=
  Scalar.select (Ideal.cmp .ogt (clampedSq u v) (Ideal.ofBits .f32 0x42800000#32)) (Ideal.ofBits .f32 0xFF800000#32)
    (Ideal.ofBits .f32 0x00000000#32 - Ideal.sqrt (clampedSq u v))

/-- Negate the root first, mask where it lies below `-8`; elsewhere the negated root. -/
def maskedBelow (u v : Fin 256 → EReal) : EReal :=
  Scalar.select (Ideal.cmp .olt (-(Ideal.sqrt (clampedSq u v))) (Ideal.ofBits .f32 0xC1000000#32)) (Ideal.ofBits .f32 0xFF800000#32)
    (-(Ideal.sqrt (clampedSq u v)))

/-- The two masked forms agree: the clamped squared distance is nonnegative. -/
theorem masked_forms_eq (u v : Fin 256 → EReal) : maskedAbove u v = maskedBelow u v :=
  Cert.Threshold.masked_eq (clampedSq_nonneg u v)

/-- Row `r` of an array with 256 columns. -/
abbrev row {n : Nat} (X : (⟨2, ![n, 256]⟩ : Shape).Idx → EReal) (r : Fin n) : Fin 256 → EReal := fun k => X (ix2 r k)

/-- The whole result: entry `(r, s)` is the masked negated distance between row `r` of `X` and row `s` of `Y`. -/
def pairwise (X Y : (⟨2, ![8192, 256]⟩ : Shape).Idx → EReal) : (⟨2, ![8192, 8192]⟩ : Shape).Idx → EReal :=
  fun i => maskedAbove (row X (i 0)) (row Y (i 1))

theorem pairwise_apply (X Y : (⟨2, ![8192, 256]⟩ : Shape).Idx → EReal) (r s : Fin 8192) :
    pairwise X Y (ix2 r s) = maskedAbove (row X r) (row Y s) := rfl

end Cert.RowDistance

end
-- ==== Proof.BlockPayload.lean ====
/-
  The body's payload read at one entry, over the extended reals.

  The payload takes the two loaded `1024 × 256` blocks `x` and `y` and produces a `1024 × 1024` block. At entry
  `(p, q)` every operation but three is pointwise; the three that are not are read here once each:
    * the lane sum of `x ∘ x` (resp. `y ∘ y`), kept as a column `[1024, 1]` and broadcast along the lanes (resp.
      transposed to a row `[1, 1024]` and broadcast down the rows), is at `(p, q)` the squared norm of row `p` of
      `x` (resp. of row `q` of `y`);
    * the matrix product of `x` with `y`, both contracted along their second axis, into the zero accumulator, is at
      `(p, q)` the inner product of row `p` of `x` and row `q` of `y`.
  So the payload at `(p, q)` is the masked negated distance `maskedAbove` between those two rows.
-/
import proofs.«101373_j27762668601763_2_alg».proof.Proof.Gen.KernelIdeal.Skeleton
import proofs.«101373_j27762668601763_2_alg».proof.Proof.RowDistance
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.BlockPayload

open Cert.KernelIdeal Cert.KernelIdeal.Gen Cert.RowDistance

/-- A lane sum of a `1024 × 256` block, at row `p`: the sum over the 256 lanes of that row. -/
theorem laneSum_apply (v : FVec Ideal S1024x256 .f32) (p : Fin 1024) :
    multiReduction .add [1] S1024 v 0x00000000#32 reduces_S1024x256_S1024 (.inl rfl) rfl (ix1 p)
      = ∑ k : Fin 256, v (ix2 p k) := by
  refine (Ideal.multiReduction_add_single v 0x00000000#32 reduces_S1024x256_S1024 (.inl rfl) rfl (ix1 p)).trans ?_
  refine Finset.sum_congr rfl fun k _ => congrArg v ?_
  exact funext fun a => Fin.ext (by match a with | ⟨0, _⟩ => rfl | ⟨1, _⟩ => rfl)

/-- A vector of length 1024 kept as a column `[1024, 1]`: the column at `(p, 0)` is the vector at `p`. -/
theorem column_apply (w : FVec Ideal S1024 .f32) (p : Fin 1024) :
    shapeCast S1024x1 w shapeCasts_S1024_S1024x1 (ix2 p (0 : Fin 1)) = w (ix1 p) := by
  refine shapeCast_apply w shapeCasts_S1024_S1024x1 (ix2 p (0 : Fin 1)) (ix1 p) ?_
  rw [Shape.rowMajor_val_one, Shape.rowMajor_val_two]
  show p.val = p.val * 1 + 0
  omega

/-- A column `[1024, 1]` broadcast along the lanes: at `(p, q)` it is the column at `(p, 0)`. -/
theorem column_bcast_apply (w : FVec Ideal S1024x1 .f32) (p q : Fin 1024) :
    broadcastTo S1024x1024 w broadcasts_S1024x1_S1024x1024 (ix2 p q) = w (ix2 p (0 : Fin 1)) := by
  refine broadcastTo_apply w broadcasts_S1024x1_S1024x1024 (ix2 p q) (ix2 p (0 : Fin 1)) fun a => ?_
  match a with
  | ⟨0, _⟩ => show p.val = if (1024 : Nat) = 1 then 0 else p.val; rw [if_neg (by decide)]
  | ⟨1, _⟩ => show 0 = if (1 : Nat) = 1 then 0 else q.val; rw [if_pos rfl]

/-- On its first axis the left operand's index at result entry `j` is `j`'s row. -/
theorem lhs_row (j : S1024x1024.Idx) (c : dot_S1024x256_S1024x256_S1024x1024_1_1_0_0_n_n.contr.Idx) :
    (dot_S1024x256_S1024x256_S1024x1024_1_1_0_0_n_n.lhsIdx j c 0).val = (j 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- On its first axis the right operand's index at result entry `j` is `j`'s column. -/
theorem rhs_row (j : S1024x1024.Idx) (c : dot_S1024x256_S1024x256_S1024x1024_1_1_0_0_n_n.contr.Idx) :
    (dot_S1024x256_S1024x256_S1024x1024_1_1_0_0_n_n.rhsIdx j c 0).val = (j 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The product of two `1024 × 256` blocks contracted along their second axes, into zeros: at `(p, q)` the sum over
    `k` of `x (p, k) * y (q, k)`. -/
theorem cross_apply (x y : FVec Ideal S1024x256 .f32) (p q : Fin 1024) :
    matmul dot_S1024x256_S1024x256_S1024x1024_1_1_0_0_n_n none x y (constant S1024x1024 .f32 0x00000000#32) (ix2 p q)
      = ∑ k : Fin 256, x (ix2 p k) * y (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k :=
    funext fun a => Fin.ext (by
      match a with
      | ⟨0, _⟩ => exact lhs_row _ _
      | ⟨1, _⟩ => exact (dot_S1024x256_S1024x256_S1024x1024_1_1_0_0_n_n.lhsIdx_val_of_single rfl (ix2 p q) _).trans hk)
  have er : dot_S1024x256_S1024x256_S1024x1024_1_1_0_0_n_n.rhsIdx (ix2 p q) ((contrEquiv1 dot_S1024x256_S1024x256_S1024x1024_1_1_0_0_n_n 256 rfl rfl).symm k) = ix2 q k :=
    funext fun a => Fin.ext (by
      match a with
      | ⟨0, _⟩ => exact rhs_row _ _
      | ⟨1, _⟩ => exact (dot_S1024x256_S1024x256_S1024x1024_1_1_0_0_n_n.rhsIdx_val_of_single rfl (ix2 p q) _).trans hk)
  rw [el, er]

/-- The squared norm of row `p` of `x`, as the payload forms it for the rows of its result. -/
theorem rowNorm_apply (x : FVec Ideal S1024x256 .f32) (p q : Fin 1024) :
    broadcastTo S1024x1024 (shapeCast S1024x1 (multiReduction .add [1] S1024 (mulf x x) 0x00000000#32
        reduces_S1024x256_S1024 (.inl rfl) rfl) shapeCasts_S1024_S1024x1) broadcasts_S1024x1_S1024x1024 (ix2 p q)
      = rowSq (fun k => x (ix2 p k)) := by
  rw [column_bcast_apply, column_apply, laneSum_apply]
  rfl

/-- The squared norm of row `q` of `y`, as the payload forms it for the columns of its result. -/
theorem colNorm_apply (y : FVec Ideal S1024x256 .f32) (p q : Fin 1024) :
    broadcastTo S1024x1024 (transpose S1x1024 [1, 0] (shapeCast S1024x1 (multiReduction .add [1] S1024 (mulf y y)
        0x00000000#32 reduces_S1024x256_S1024 (.inl rfl) rfl) shapeCasts_S1024_S1024x1) transposes_S1024x1_p1_0_S1x1024)
        broadcasts_S1x1024_S1024x1024 (ix2 p q)
      = rowSq (fun k => y (ix2 q k)) := by
  rw [broadcastTo_1b_ab_apply, transpose_ix2_apply, column_apply, laneSum_apply]
  rfl

/-- THE PAYLOAD AT AN ENTRY: the masked negated distance between row `p` of the first block and row `q` of the
    second. -/
theorem pay_apply (x y : FVec Ideal S1024x256 .f32) (p q : Fin 1024) :
    k0_pay1 (F := Ideal) x y (ix2 p q) = maskedAbove (fun k => x (ix2 p k)) (fun k => y (ix2 q k)) := by
  unfold maskedAbove clampedSq
  rw [← rowNorm_apply x p q, ← colNorm_apply y p q]
  unfold rowDot
  rw [← cross_apply x y p q]
  rfl

end Cert.KernelIdeal.BlockPayload

end
-- ==== Proof.KernelArray.lean ====
/-
  The kernel's result array is the specification `pairwise` of its two argument arrays.

  The grid is `8 × 8`. At point `(i, j)` the first operand's window holds rows `1024 i … 1024 i + 1023` of `X`, the
  second operand's window is all of `Y` (of which the body reads rows `1024 j … 1024 j + 1023`), and the output's
  window is block `(i, j)` of the `8192 × 8192` result. Entry `(p, q)` of what the point leaves is the masked negated
  distance between row `p` of the first block and row `q` of the row range: that is, between row `1024 i + p` of `X` and
  row `1024 j + q` of `Y` — the entry of `pairwise X Y` at the place in the result where the block's entry `(p, q)`
  lands. Every point writes its block back, the 64 blocks tile the result (entry `(r, s)` lies in block
  `(r / 1024, s / 1024)`), so the array after the run is `pairwise X Y`.
-/
import proofs.«101373_j27762668601763_2_alg».proof.Proof.Gen.KernelIdeal.Value
import proofs.«101373_j27762668601763_2_alg».proof.Proof.Piece
import proofs.«101373_j27762668601763_2_alg».proof.Proof.BlockPayload

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value Cert.RowDistance

variable (m : (ℓ : Loc nD τ sig) → Buf (Elt Ideal) ℓ) (ρ : Dev nD → PrngReg)

/-- One entry of what a point leaves, over variables: if row `p` of the first block is row `i 0` of `X`, and row `q`
    of the row range read from the second array is row `i 1` of `Y`, the payload at `(p, q)` is `pairwise X Y` at `i`. -/
theorem entry_eq (X Y : S8192x256.Idx → EReal) (x0 : FVec Ideal S1024x256 .f32) (x1 : FVec Ideal S8192x256 .f32)
    (off : Fin 2 → Nat) (inb : ∀ a, off a + S1024x256.size a ≤ S8192x256.size a)
    (p q : Fin 1024) (i : S8192x8192.Idx)
    (h0 : ∀ k : Fin 256, x0 (ix2 p k) = X (ix2 (i 0) k))
    (h1 : ∀ k : Fin 256, x1 ((Rect.unit (s := S8192x256) off S1024x256.size inb).idx (ix2 q k)) = Y (ix2 (i 1) k)) :
    k0_pay1 (F := Ideal) x0 (View.ld x1 (Rect.unit (s := S8192x256) off S1024x256.size inb)) (ix2 p q)
      = pairwise X Y i := by
  rw [BlockPayload.pay_apply]
  unfold pairwise
  exact congrArg₂ maskedAbove (funext h0) (funext h1)

/-- The printed index maps, decided once over the 64 points: the first operand's block row is the output's block row,
    its block column is `0`; the second operand's one block is at `(0, 0)`; the point's second coordinate is the
    output's block column; and the output's block indices are below `8`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ (grid0.coords t 1).val = win0_2.index t (1 : Fin 2)
    ∧ win0_2.index t (0 : Fin 2) ≤ 7 ∧ win0_2.index t (1 : Fin 2) ≤ 7 :=
  (by decide +kernel : ∀ t : Fin grid0.N, _)

/-- Every block of the result is some point's. -/
theorem idx_onto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- WHAT POINT `t` WRITES BACK is block `t` of `pairwise` of the argument arrays. -/
theorem flushed_eq (c : Dev nD) (t : Fin cfg0.N) :
    (dats m 0 c).flushed 2 t
      = ((cfg0.win 2).blk t).view.read (Elt Ideal) (pairwise (V m c main_arg0) (V m c main_arg1)) := by
  refine (flushed2_A m c t).trans ?_
  refine (congrArg ((cfg0.win 2).cut (grid0.coords t)) (Piece.staged_eq c (grid0.coords t) (ms0_0 t) (hs0_0 t)
    (ms0_1 t) (hs0_1 t) (ms0_2 t) (hs0_2 t) (iblk m c 0 t) (iblk m c 1 t))).trans ?_
  obtain ⟨e00, e01, e10, e11, ec, -, -⟩ := idx_facts t
  funext j
  obtain ⟨p, q, rfl⟩ : ∃ (p q : Fin 1024), j = ix2 p q := ⟨j 0, j 1, eq_ix2 j⟩
  show k0_pay1 (F := Ideal) (iblk m c 0 t) (Piece.rowRange (grid0.coords t) (iblk m c 1 t)) (ix2 p q)
    = pairwise (V m c main_arg0) (V m c main_arg1) (((cfg0.win 2).blk t).view.emb (ix2 p q))
  refine entry_eq (V m c main_arg0) (V m c main_arg1) (iblk m c 0 t) (iblk m c 1 t) (k0_off1 (grid0.coords t))
    (k0_off1_inb (grid0.coords t)) p q (((cfg0.win 2).blk t).view.emb (ix2 p q)) (fun k => ?_) (fun k => ?_)
  · show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * k.val = k.val
      omega
  · show V m c main_arg1 (((cfg0.win 1).blk t).view.emb
        ((Rect.unit (s := S8192x256) (k0_off1 (grid0.coords t)) S1024x256.size (k0_off1_inb (grid0.coords t))).idx (ix2 q k)))
      = V m c main_arg1 (ix2 ((((cfg0.win 2).blk t).view.emb (ix2 p q)) 1) k)
    have ho := k0_off1_eq (grid0.coords t)
    have ho0 : k0_off1 (grid0.coords t) 0 = 1024 * (grid0.coords t 1).val := by rw [ho]; rfl
    have ho1 : k0_off1 (grid0.coords t) 1 = 0 := by rw [ho]; rfl
    refine congrArg (V m c main_arg1) (funext fun a => Fin.ext ?_)
    match a with
    | ⟨0, _⟩ =>
      show win0_1.index t (0 : Fin 2) * 8192 + 1 * (k0_off1 (grid0.coords t) 0 + 1 * q.val)
        = win0_2.index t (1 : Fin 2) * 1024 + 1 * q.val
      omega
    | ⟨1, _⟩ =>
      show win0_1.index t (1 : Fin 2) * 256 + 1 * (k0_off1 (grid0.coords t) 1 + 1 * k.val) = k.val
      omega

/-- An entry of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result is in the block of some point that writes back: entry `(r, s)` in block
    `(r / 1024, s / 1024)`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE ARRAY after the run: `pairwise` of the two argument arrays. -/
theorem final (c : Dev nD) : (dats m 0 c).arrAt 2 cfg0.N
    = pairwise (m ((c : Thread nD τ).loc main_arg0)) (m ((c : Thread nD τ).loc main_arg1)) :=
  (dats m 0 c).arrAt_eq_of_cover 2 (pairwise (V m c main_arg0) (V m c main_arg1)) (fun t _ => flushed_eq m c t) cover

/-- The run, read: the result array at `pairwise` of the arguments, the arguments unchanged. -/
theorem run : θ_run defs (onTc (τ := τ) (main (F := Ideal))) ⟨m, fun _ => 0, ρ⟩ fun r => ∀ c : Dev nD,
      r.2.mem ((c : Thread nD τ).loc main_v0)
        = pairwise (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.ReferenceArray.lean ====
/-
  The reference's result is the specification `pairwise`.

  Read one operation at a time at entry `(r, s)`, the reference forms: the row sums `0 + ∑ k, X (r, k)²` and
  `0 + ∑ k, Y (s, k)²` (each kept as a column; the second transposed to a row; both broadcast to `8192 × 8192`), the
  product of `X` with the transpose of `Y`, which at `(r, s)` is `∑ k, X (r, k) * Y (s, k)`, then pointwise
  `max (· + · - 2 * ·) 0`, the negated square root, the comparison with `-8`, and the selection of `-∞`. With the
  composed index maps identified with rows `r` and `s`, this is `maskedBelow` of the two rows, which is
  `maskedAbove` of them (`masked_forms_eq`).
-/
import proofs.«101373_j27762668601763_2_alg».proof.Proof.Gen.ReferenceIdeal.Read
import proofs.«101373_j27762668601763_2_alg».proof.Proof.RowDistance

noncomputable section

open Idealize.ShloMosaic Idealize.ShloMosaic.ValueIdx

namespace Cert.ReferenceIdeal.RefValue

open Cert.ReferenceIdeal Cert.ReferenceIdeal.Read Cert.RowDistance

/-- The reference's result array, as a function of its two arguments, is `pairwise` of them. -/
theorem result_eq (X Y : (⟨S8192x256, .f32⟩ : BufTy).Contents (Elt Ideal)) :
    val_main_v21 (F := Ideal) X Y = pairwise X Y := by
  funext i
  obtain ⟨r, s, rfl⟩ : ∃ (r s : Fin 8192), i = ix2 r s := ⟨i 0, i 1, eq_ix2 i⟩
  rw [pairwise_apply, masked_forms_eq]
  -- the composed index maps name rows `r` and `s`
  have e1 : ∀ k : Fin 256, idx_main_v1 (idx_main_v2 (idx_main_v7 (ix2 r s))) k = ix2 r k := fun k =>
    funext fun a => Fin.ext (by match a with | ⟨0, _⟩ => rfl | ⟨1, _⟩ => rfl)
  have e4 : ∀ k : Fin 256, idx_main_v4 (idx_main_v5 (idx_main_v6 (idx_main_v8 (ix2 r s)))) k = ix2 s k := fun k =>
    funext fun a => Fin.ext (by match a with | ⟨0, _⟩ => rfl | ⟨1, _⟩ => rfl)
  have el : ∀ k : Fin 256, lidx_main_v11 (ix2 r s) k = ix2 r k := fun k =>
    funext fun a => Fin.ext (by match a with | ⟨0, _⟩ => rfl | ⟨1, _⟩ => rfl)
  have er : ∀ k : Fin 256, idx_main_v10 (ridx_main_v11 (ix2 r s) k) = ix2 s k := fun k =>
    funext fun a => Fin.ext (by match a with | ⟨0, _⟩ => rfl | ⟨1, _⟩ => rfl)
  rw [val_main_v21_apply, val_main_v20_apply, val_main_call0_v1_apply, val_main_call0_v0_apply, val_main_cst_4_apply,
    val_main_v19_apply, val_main_cst_3_apply, val_main_v18_apply, val_main_v17_apply, val_main_v16_apply,
    val_main_v15_apply, val_main_cst_2_apply, val_main_v14_apply, val_main_v13_apply, val_main_v12_apply,
    val_main_cst_1_apply, val_main_v11_apply, val_main_v9_apply, val_main_v8_apply, val_main_v7_apply,
    val_main_v6_apply, val_main_v5_apply, val_main_v4_apply, val_main_v2_apply, val_main_v1_apply]
  unfold maskedBelow clampedSq rowSq rowDot
  simp only [val_main_v0_apply, val_main_v3_apply, val_main_v10_apply, val_main_cst_apply, val_main_cst_0_apply,
    e1, e4, el, er, Ideal.mulf_def, Ideal.addf_def, Ideal.subf_def, Ideal.maximumf_def, Ideal.hostUnary_sqrt_def,
    Ideal.hostNegf_def, Ideal.negf_def, Ideal.cmpf_def, Ideal.ofBits_def, Ideal.ofBits_zero_f32, zero_add]

end Cert.ReferenceIdeal.RefValue

end
-- ==== Proof.lean ====
/-
  The masked negated pairwise Euclidean distance of two `8192 × 256` arrays: the tiled kernel against its whole-array
  reference, over the extended reals.

  Both programs compute, for every pair of a row `r` of `X` and a row `s` of `Y`, the squared distance by the Gram
  identity `|X_r|² + |Y_s|² - 2 X_r · Y_s`, clamp it at zero, and return `-∞` where the pair is far and minus the
  square root of the clamped value elsewhere. They differ in two ways only.
    * The kernel works block by block over an `8 × 8` grid: point `(i, j)` forms the `1024 × 1024` block of the result
      from rows `1024 i …` of `X` and rows `1024 j …` of `Y`. Each entry depends on one row of each array and on nothing
      else, the row sums and the inner product are the same finite sums term by term, and the blocks tile the result;
      so the array after the run is the one whole-array function `pairwise X Y` (`ArrayValue.run`).
    * The kernel masks where the clamped squared distance exceeds `64`; the reference takes the negated root first and
      masks where it lies below `-8`. For a nonnegative extended real these are the same condition, and `0 - y = -y`
      (`Threshold.masked_eq`); this is where the reference's result is shown to be `pairwise X Y` as well
      (`RefValue.result_eq`).
  No law used needs the inputs to be finite: the two sides are built from the same sums by the same operations, and the
  threshold law holds at `+∞` too. The precondition is therefore never opened.

  The three frame claims are the generated frames (the reference's is its generated run with the result dropped); the
  idealization rewrote nothing, so `preserves` is `True`.
-/
import proofs.«101373_j27762668601763_2_alg».proof.Defs
import proofs.«101373_j27762668601763_2_alg».proof.Proof.Gen.Kernel
import proofs.«101373_j27762668601763_2_alg».proof.Proof.Gen.Kernel.Skeleton
import proofs.«101373_j27762668601763_2_alg».proof.Proof.Gen.Kernel.Launch
import proofs.«101373_j27762668601763_2_alg».proof.Proof.Gen.Kernel.Points
import proofs.«101373_j27762668601763_2_alg».proof.Proof.Gen.Kernel.Frame
import proofs.«101373_j27762668601763_2_alg».proof.Proof.Gen.KernelIdeal
import proofs.«101373_j27762668601763_2_alg».proof.Proof.Gen.KernelIdeal.Skeleton
import proofs.«101373_j27762668601763_2_alg».proof.Proof.Gen.KernelIdeal.Launch
import proofs.«101373_j27762668601763_2_alg».proof.Proof.Gen.KernelIdeal.Points
import proofs.«101373_j27762668601763_2_alg».proof.Proof.Gen.KernelIdeal.Frame
import proofs.«101373_j27762668601763_2_alg».proof.Proof.Gen.ReferenceIdeal
import proofs.«101373_j27762668601763_2_alg».proof.Proof.Gen.Pre_finite_inputs
import proofs.«101373_j27762668601763_2_alg».proof.Proof.Gen.KernelIdeal.Value
import proofs.«101373_j27762668601763_2_alg».proof.Proof.Gen.ReferenceIdeal.Run
import proofs.«101373_j27762668601763_2_alg».proof.Proof.Gen.ReferenceIdeal.Read
import proofs.«101373_j27762668601763_2_alg».proof.Proof.KernelArray
import proofs.«101373_j27762668601763_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the two arguments, the kernel's result array and the reference's both end at
    `pairwise` of those arguments. -/
theorem algebraic : Cert.algebraic_KernelIdeal_ReferenceIdeal := by
  intro m ρ m' ρ' _ hagree
  refine ⟨fun c => Cert.RowDistance.pairwise
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
